-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  main_v8
-- ==== Kernel.lean ====
abbrev S32x1x1024x1024 : Shape := ⟨4, ![32, 1, 1024, 1024]⟩
abbrev S32768x1024 : Shape := ⟨2, ![32768, 1024]⟩
abbrev S16x128 : Shape := ⟨2, ![16, 128]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32768x1024, .f32⟩
  | .hbm, ⟨3, _⟩ => ⟨S32768x1024, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S8x128, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32x1x1024x1024_S32768x1024 : S32x1x1024x1024.ShapeCasts S32768x1024
  inb_S8x128_S8x128_0_0 : ∀ a, (![0, 0] : Fin 2 → Nat) a + S8x128.size a ≤ S8x128.size a
  h_S8x128 : 0 < S8x128.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  shapeCasts_S8x128_S8x128 : S8x128.ShapeCasts S8x128
  shapeCasts_S1x1_S1x1 : S1x1.ShapeCasts S1x1
  broadcasts_S1x1_S8x128 : S1x1.Broadcasts S8x128
  reducesTo_S16x128_S_d0_1 : S16x128.ReducesTo [0, 1] S_
  h_S_ : 0 < S_.numel
  shapeCasts_S_S_ : S_.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1024x1024 : Shape := ⟨3, ![32, 1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1x1024x1024, .f32⟩
  | .hbm, ⟨3, _⟩ => ⟨S_, .f32⟩
  | .hbm, ⟨4, _⟩ => ⟨S32x1x1024x1024, .f32⟩
  | .hbm, ⟨5, _⟩ => ⟨S32x1x1024x1024, .f32⟩
  | .hbm, ⟨6, _⟩ => ⟨S32x1x1024x1024, .f32⟩
  | .hbm, ⟨7, _⟩ => ⟨S32x1x1024x1024, .f32⟩
  | .hbm, ⟨8, _⟩ => ⟨S_, .f32⟩
  | .hbm, ⟨9, _⟩ => ⟨S32x1x1024x1024, .f32⟩
  | .hbm, ⟨10, _⟩ => ⟨S32x1x1024x1024, .f32⟩
  | .hbm, ⟨11, _⟩ => ⟨S32x1x1024x1024, .f32⟩
  | .hbm, ⟨12, _⟩ => ⟨S_, .f32⟩
  | .hbm, ⟨13, _⟩ => ⟨S32x1x1024x1024, .f32⟩
  | .hbm, ⟨14, _⟩ => ⟨S32x1x1024x1024, .f32⟩
  | .hbm, ⟨15, _⟩ => ⟨S32x1x1024x1024, .f32⟩
  | .hbm, ⟨16, _⟩ => ⟨S32x1x1024x1024, .f32⟩
  | .hbm, ⟨17, _⟩ => ⟨S32x1x1024x1024, .f32⟩
  | .hbm, ⟨18, _⟩ => ⟨S_, .f32⟩
  | .hbm, ⟨19, _⟩ => ⟨S32x1024x1024, .f32⟩
  | .hbm, ⟨20, _⟩ => ⟨S_, .f32⟩
  | .hbm, ⟨21, _⟩ => ⟨S32x1024x1024, .f32⟩
  | .hbm, ⟨22, _⟩ => ⟨S32x1024x1024, .f32⟩
  | .hbm, ⟨23, _⟩ => ⟨S_, .f32⟩
  | .hbm, ⟨24, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S32x1x1024x1024 : S_.BroadcastsInDim S32x1x1024x1024 (![] : Fin 0 → Fin S32x1x1024x1024.rank)
  reducesTo_S32x1x1024x1024_S32x1024x1024_d1 : S32x1x1024x1024.ReducesTo [1] S32x1024x1024
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts₀]

class Facts : Prop extends Facts₀ where

variable [Facts]
-- ==== Proof.Spec.lean ====
/-
  The function both programs compute, stated once over the extended reals: the clamped binary cross-entropy of a
  prediction `p` and a target `t`,
      bce p t = -( t · max (log p) (-100) + (1 - t) · max (log (1 + (-p))) (-100) ),
  and its sum over every element of the two [32, 1, 1024, 1024] arrays. The constants are kept as the words both
  programs print (`-100` is `0xC2C80000`, `1` is `0x3F800000`), so neither side ever evaluates them.
-/
import Idealize.ShloMosaic.PureOps.Ideal
import Idealize.ShloMosaic.PureOps.Ideal.Laws
import Idealize.ShloMosaic.Lib.ValueIdx

noncomputable section

namespace BceSum

open Idealize.ShloMosaic Idealize.ShloMosaic.ValueIdx

/-- The arguments' shape, the shape of their row-major flattening to rows of 1024, the shape with the unit channel axis
    summed away, and the scalar shape. -/
abbrev S4 : Shape := ⟨4, ![32, 1, 1024, 1024]⟩
abbrev S2 : Shape := ⟨2, ![32768, 1024]⟩
abbrev S3 : Shape := ⟨3, ![32, 1024, 1024]⟩
abbrev S0 : Shape := ⟨0, ![]⟩

/-- The lower clamp of both logarithms, `-100`, as the word the programs print. -/
abbrev clamp : EReal := Ideal.ofBits .f32 0xC2C80000#32
/-- The constant `1` of `1 - t`, as the word the programs print. -/
abbrev one : EReal := Ideal.ofBits .f32 0x3F800000#32

/-- The clamped binary cross-entropy of one prediction and one target. -/
def bce (p t : EReal) : EReal :=
  -(t * max (Ideal.log p) clamp + (one - t) * max (Ideal.log1p (-p)) clamp)

/-- The loss: the sum of `bce` over every element. -/
def total (P T : S4.Idx → EReal) : EReal := ∑ q : S4.Idx, bce (P q) (T q)

/-- Row `512·t + r` of the flattened arrays: row `r` of the `t`-th block of 512 rows. -/
abbrev rowOf (t : Fin 64) (r : Fin 512) : Fin 32768 := ⟨512 * t.val + r.val, by have := t.isLt; have := r.isLt; omega⟩

/-- On the extended reals `0 - x` is `-x` (the kernel negates by subtracting from zero). -/
theorem zero_sub' (x : EReal) : (0 : EReal) - x = -x := by
  rw [sub_eq_add_neg, zero_add]

end BceSum

end
-- ==== Proof.RefValue.lean ====
/-
  The reference's result at the ideal instance. The reference forms the clamped cross-entropy element by element, sums
  the channel axis (one element: the sum is that element, after `0 +`), divides by the word of 1 (the identity on the
  extended reals) and sums the remaining three axes from zero. Inserting the channel coordinate 0 is a bijection from the
  three-axis indices onto all indices, so the result is the sum over every element: `total`.
-/
import proofs.«148987_j67542655697315_2_alg».proof.Proof.Gen.ReferenceIdeal.Run
import proofs.«148987_j67542655697315_2_alg».proof.Proof.Gen.ReferenceIdeal.Read
import proofs.«148987_j67542655697315_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The word `0x3F800000` denotes the real number `1`. -/
theorem ofBits_one_f32 : Ideal.ofBits .f32 0x3F800000#32 = ((1 : ℝ) : EReal) := by
  simp [Ideal.ofBits, Ideal.ieee, -EReal.coe_mul]; norm_num

/-- Dividing by the word of `1` changes nothing. -/
theorem div_one_word (x : EReal) : Ideal.div x (Ideal.ofBits .f32 0x3F800000#32) = x := by
  rw [ofBits_one_f32, Ideal.div_coe (by norm_num : (1 : ℝ) ≠ 0)]
  simp

/-- Inserting the unit channel coordinate is a bijection from the indices without the channel axis onto all indices:
    the channel coordinate of any index is `0`, the only element of `Fin 1`. -/
def dropUnit : BceSum.S3.Idx ≃ BceSum.S4.Idx where
  toFun j := ix4 (j 0) (0 : Fin 1) (j 1) (j 2)
  invFun q := ix3 (q 0) (q 2) (q 3)
  left_inv j := (eq_ix3 j).symm
  right_inv q := funext fun a => by
    match a with
    | ⟨0, _⟩ => rfl
    | ⟨1, _⟩ => exact Subsingleton.elim (α := Fin 1) _ _
    | ⟨2, _⟩ => rfl
    | ⟨3, _⟩ => rfl

/-- Summing the unit channel axis away and summing the rest is summing everything. -/
theorem sum_drop_unit (F : BceSum.S4.Idx → EReal) :
    ∑ j : BceSum.S3.Idx, F (ix4 (j 0) (0 : Fin 1) (j 1) (j 2)) = ∑ q : BceSum.S4.Idx, F q :=
  Equiv.sum_comp dropUnit F

/-- The reference reads the channel axis' one element at the index with that coordinate inserted. -/
theorem idx_v13_eq (j : S32x1024x1024.Idx) (k : Fin 1) : idx_main_v13 j k = ix4 (n0 := 32) (n1 := 1) (n2 := 1024) (n3 := 1024) (j 0) k (j 1) (j 2) :=
  funext fun a => Fin.ext (by match a with | ⟨0, _⟩ => rfl | ⟨1, _⟩ => rfl | ⟨2, _⟩ => rfl | ⟨3, _⟩ => rfl)

/-- The reference's result, at the ideal instance, is the loss. -/
theorem ref_eq (x0 x1 : (⟨S32x1x1024x1024, .f32⟩ : BufTy).Contents (Elt Ideal)) :
    val_main_v16 (F := Ideal) x0 x1 = fun _ => BceSum.total x0 x1 := by
  funext i
  rw [val_main_v16_apply, val_main_cst_4_apply, Ideal.ofBits_def, Ideal.ofBits_zero_f32, zero_add]
  unfold BceSum.total
  rw [← sum_drop_unit (fun q => BceSum.bce (x0 q) (x1 q))]
  refine Finset.sum_congr rfl fun j _ => ?_
  rw [val_main_v15_apply, val_main_v13_apply, val_main_v14_apply, val_main_cst_3_apply, val_main_cst_2_apply,
    Fin.sum_univ_one, idx_v13_eq]
  simp only [Ideal.ofBits_def, Ideal.hostDivf_def]
  rw [Ideal.ofBits_zero_f32, zero_add, div_one_word]
  rw [val_main_v12_apply, val_main_v11_apply, val_main_v7_apply, val_main_v10_apply, val_main_v2_apply,
    val_main_v6_apply, val_main_v9_apply, val_main_v0_apply, val_main_v1_apply, val_main_v4_apply, val_main_v3_apply,
    val_main_v5_apply, val_main_v8_apply, val_main_cst_apply, val_main_cst_0_apply, val_main_cst_1_apply]
  simp only [Ideal.hostNegf_def, Ideal.negf_def, Ideal.addf_def, Ideal.mulf_def, Ideal.subf_def, Ideal.maximumf_def,
    Ideal.hostUnary_log_def, Ideal.hostUnary_log1p_def, Ideal.ofBits_def]
  rfl

end Cert.ReferenceIdeal.RefValue

end
-- ==== Proof.KDefs.lean ====
/-
  Names for what the kernel leaves behind, at the ideal instance. One grid point reads a block of 512 rows of each
  flattened argument and contributes the block's partial loss `tot`; the partial lands in entry (0, 0) of an [8, 128]
  accumulator block whose other entries stay zero (`cell`); the 64 points split into two runs of 32, one per half of the
  [16, 128] result array, so after the last point that array holds `half 0` at (0, 0), `half 1` at (8, 0) and zero
  elsewhere (`outArr`).
-/
import proofs.«148987_j67542655697315_2_alg».proof.Proof.Gen.KernelIdeal.Frame
import proofs.«148987_j67542655697315_2_alg».proof.Proof.Spec
import Idealize.ShloMosaic.Lib.ValueIdx

noncomputable section

namespace Cert.KernelIdeal.KVal

open Cert.KernelIdeal Cert.KernelIdeal.Gen Idealize.ShloMosaic Idealize.ShloMosaic.TcCoe Idealize.ShloMosaic.ValueIdx Idealize.SL.Sem

/-- The partial loss of one block of 512 rows: the sum of the clamped cross-entropy over its elements. -/
def tot (x0 x1 : FVec Ideal S512x1024 .f32) : EReal :=
  ∑ r : Fin 512, ∑ l : Fin 1024, BceSum.bce (x0 (ix2 r l)) (x1 (ix2 r l))

/-- The [8, 128] block that holds `s` at (0, 0) and zero everywhere else. -/
def cell (s : EReal) : FVec Ideal S8x128 .f32 := fun j => if (j 0).val = 0 ∧ (j 1).val = 0 then s else 0

variable (m : (ℓ : Loc nD τ sig) → Buf (Elt Ideal) ℓ)

/-- The partial loss of grid point `n`'s blocks (zero past the grid, where it is never used). -/
def blockTot (c : Dev nD) (n : ℕ) : EReal :=
  if h : n < cfg0.N then tot (iblk m c 0 ⟨n, h⟩) (iblk m c 1 ⟨n, h⟩) else 0

/-- The loss of half `q` of the rows: the partials of the 32 points `32·q … 32·q + 31`. -/
def half (c : Dev nD) (q : ℕ) : EReal := ∑ s ∈ Finset.range 32, blockTot m c (32 * q + s)

/-- The [16, 128] result array of the kernel call: half `q`'s loss at (8·q, 0), zero elsewhere. -/
def outArr (c : Dev nD) : FVec Ideal S16x128 .f32 :=
  fun j => if (j 0).val % 8 = 0 ∧ (j 1).val = 0 then half m c ((j 0).val / 8) else 0

end Cert.KernelIdeal.KVal

end
-- ==== Proof.KPay.lean ====
/-
  The kernel body's arithmetic at the ideal instance, read at an index. The body forms, element by element of its two
  [512, 1024] blocks, `0 - (t · max (log p) (-100) + (1 - t) · max (log1p (0 - p)) (-100))`, which is the clamped
  cross-entropy `bce p t`; sums each row over its 1024 lanes and then the 512 row sums; and selects that total into entry
  (0, 0) of an [8, 128] block by a mask built from the two coordinate iotas (`row = 0 ∧ lane = 0`), zero elsewhere.
  So the value the body adds to its accumulator block is `cell (tot x0 x1)`.
-/
import proofs.«148987_j67542655697315_2_alg».proof.Proof.KDefs
import Idealize.ShloMosaic.Lib.ValueIdx
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.ValueIdx

/-- The mask `(row iota = 0) ∧ (lane iota = 0)` is set exactly at (0, 0): decided over the 8 × 128 positions. -/
theorem mask_eq (p : Fin 8) (q : Fin 128) :
    IntOp.andi (IntOp.cmpi .eq (BitVec.ofNat 32 p.val) 0#32) (IntOp.cmpi .eq (BitVec.ofNat 32 q.val) 0#32)
      = if p.val = 0 ∧ q.val = 0 then 1#1 else 0#1 := by
  revert p q; decide +kernel

/-- A [1] vector viewed [1, 1] and broadcast to [8, 128] reads its one element everywhere. -/
theorem bcast_cell (v : FVec Ideal S1 .f32) (p : Fin 8) (q : Fin 128) :
    broadcastTo S8x128 (shapeCast S1x1 (shapeCast S1x1 v shapeCasts_S1_S1x1) shapeCasts_S1x1_S1x1) broadcasts_S1x1_S8x128 (ix2 p q)
      = v (ix1 0) := by
  rw [shapeCast_self]
  refine (broadcastTo_apply _ broadcasts_S1x1_S8x128 (ix2 p q) (ix2 0 0) (fun a => by
    match a with
    | ⟨0, _⟩ => rfl
    | ⟨1, _⟩ => rfl)).trans ?_
  refine (shapeCast_apply v shapeCasts_S1_S1x1 (ix2 0 0) (ix1 0) ?_)
  rw [Shape.rowMajor_val_one, Shape.rowMajor_val_two]
  rfl

/-- The lane sum of every row, viewed as a column, then summed over the rows: the double sum over the block. -/
theorem rows_sum (w : FVec Ideal S512x1024 .f32) (hφ : FKind.Formats .f32)
    (hacc : (0x00000000#32 : BitVec 32) = FKind.add.neutral .f32 hφ) :
    multiReduction .add [0] S1 (shapeCast S512x1 (multiReduction .add [1] S512 w 0x00000000#32 reduces_S512x1024_S512 hφ hacc)
        shapeCasts_S512_S512x1) 0x00000000#32 reduces_S512x1_S1 hφ hacc (ix1 0)
      = ∑ r : Fin 512, ∑ l : Fin 1024, w (ix2 r l) := by
  refine (Ideal.multiReduction_add_single _ 0x00000000#32 reduces_S512x1_S1 hφ hacc (ix1 0)).trans ?_
  refine Finset.sum_congr rfl fun r _ => ?_
  refine (shapeCast_apply _ shapeCasts_S512_S512x1 _ (ix1 r) ?_).trans ?_
  · rw [Shape.rowMajor_val_one, Shape.rowMajor_val_two]
    show (r : ℕ) = (r : ℕ) * 1 + 0
    omega
  refine (Ideal.multiReduction_add_single w 0x00000000#32 reduces_S512x1024_S512 hφ hacc (ix1 r)).trans ?_
  refine Finset.sum_congr rfl fun l _ => ?_
  refine congrArg w (funext fun a => Fin.ext ?_)
  match a with
  | ⟨0, _⟩ => rfl
  | ⟨1, _⟩ => rfl

/-- The body's elementwise stage at one element is the clamped cross-entropy of that element: the two negations are
    subtractions from the zero word, and `0 - x = -x` on the extended reals. -/
theorem elem_eq (x0 x1 : FVec Ideal S512x1024 .f32) (r : Fin 512) (l : Fin 1024) :
    (subf (broadcast S512x1024 (FloatOps.ofBits FTy.f32 0#32))
      (addf
        (mulf (shapeCast S512x1024 x1 shapeCasts_S512x1024_S512x1024)
          (maximumf (log (shapeCast S512x1024 x0 shapeCasts_S512x1024_S512x1024))
            (broadcast S512x1024 (FloatOps.ofBits FTy.f32 3267887104#32))))
        (mulf
          (subf (broadcast S512x1024 (FloatOps.ofBits FTy.f32 1065353216#32))
            (shapeCast S512x1024 x1 shapeCasts_S512x1024_S512x1024))
          (maximumf
            (log1p
              (subf (broadcast S512x1024 (FloatOps.ofBits FTy.f32 0#32))
                (shapeCast S512x1024 x0 shapeCasts_S512x1024_S512x1024)))
            (broadcast S512x1024 (FloatOps.ofBits FTy.f32 3267887104#32)))))) (ix2 r l)
      = BceSum.bce (x0 (ix2 r l)) (x1 (ix2 r l)) := by
  rw [shapeCast_self, shapeCast_self]
  simp only [subf, addf, mulf, maximumf, log, log1p, broadcast, Ideal.subf_def, Ideal.addf_def, Ideal.mulf_def,
    Ideal.maximumf_def, Ideal.log_def, Ideal.log1p_def, Ideal.ofBits_def, Ideal.ofBits_zero_f32, BceSum.zero_sub', BceSum.bce]

/-- What the body adds to its accumulator block: the block's partial loss at (0, 0), zero elsewhere. -/
theorem pay4_eq (x0 x1 : FVec Ideal S512x1024 .f32) : k0_pay4 (F := Ideal) x0 x1 = cell (tot x0 x1) := by
  funext j
  obtain ⟨p, q, rfl⟩ : ∃ (p : Fin 8) (q : Fin 128), j = ix2 p q := ⟨j 0, j 1, eq_ix2 j⟩
  unfold k0_pay4
  refine (select_apply _ _ _ _).trans ?_
  have hm : (andi (cmpi CmpIPredicate.eq (iota Kind.tc S8x128 32 [0] iota_S8x128_d0_w32) (broadcast S8x128 0#32))
        (cmpi CmpIPredicate.eq (iota Kind.tc S8x128 32 [1] iota_S8x128_d1_w32) (broadcast S8x128 0#32))) (ix2 p q)
      = if p.val = 0 ∧ q.val = 0 then 1#1 else 0#1 := by
    show IntOp.andi (IntOp.cmpi .eq (iota Kind.tc S8x128 32 [0] iota_S8x128_d0_w32 (ix2 p q)) 0#32)
      (IntOp.cmpi .eq (iota Kind.tc S8x128 32 [1] iota_S8x128_d1_w32 (ix2 p q)) 0#32) = _
    rw [iota_single_apply, iota_single_apply]
    exact mask_eq p q
  rw [hm]
  refine (congrArg (fun z => Scalar.select _ z _) (bcast_cell _ p q)).trans ?_
  refine (congrArg (fun z => Scalar.select _ z _) (rows_sum _ _ _)).trans ?_
  refine (congrArg (fun z => Scalar.select _ z _)
    (Finset.sum_congr rfl fun r _ => Finset.sum_congr rfl fun l _ => elem_eq x0 x1 r l)).trans ?_
  show Scalar.select _ (tot x0 x1) (Ideal.ofBits .f32 0x00000000#32) = if p.val = 0 ∧ q.val = 0 then tot x0 x1 else 0
  rw [Ideal.ofBits_zero_f32]
  by_cases h : p.val = 0 ∧ q.val = 0
  · rw [if_pos h, if_pos h, select_one]
  · rw [if_neg h, if_neg h, select_zero]

end Cert.KernelIdeal.KVal

end
-- ==== Proof.KOut.lean ====
/-
  What one run of the kernel body leaves in the accumulator's staging block, read back as a value, at any instance.
  At the first point of a half (case A) the body stores the zero block, reads it back and stores `0 + Δ`; at every
  other point (case B) it reads the block `acc` the point before left and stores `acc + Δ` — where `Δ` is the body's
  payload of the two input blocks. Each case ends with one store covering the whole block, so the block's contents are
  that store's value.
-/
import proofs.«148987_j67542655697315_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KVal

open Cert.KernelIdeal Cert.KernelIdeal.Gen

variable {F : FTy → Type} [FloatOps F]

theorem hz : (![0, 0] : Fin 2 → Nat) = fun _ => 0 := funext fun a => by fin_cases a <;> rfl

/-- The zero block the first point of each half stores before accumulating. -/
abbrev zero : Vec F S8x128 .f32 := broadcast S8x128 (Scalar.ofBits .f32 0x00000000#32)

/-- Case B: over a block holding `xo`, the body leaves `xo + Δ`. -/
theorem out_B (c : Dev nD) (i : grid0.Coords) (a2 : Memref sig .tc .vmem S512x1024 .f32) (h2 : a2.IsWhole)
    (a3 : Memref sig .tc .vmem S512x1024 .f32) (h3 : a3.IsWhole) (a4 : Memref sig .tc .vmem S8x128 .f32) (h4 : a4.IsWhole)
    (hc : ¬cond0_0 i) (x0 x1 : Vec F S512x1024 .f32) (xo : Vec F S8x128 .f32) :
    out0_B_2 c i a2 h2 a3 h3 a4 h4 hc x0 x1 xo = addf xo (k0_pay4 x0 x1) := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  unfold k0_pay1 k0_pay3
  simp only [View.readAt_eq_ld, h2.read_unread, h3.read_unread, h4.read_unread, View.ld_unit_zero (S := S8x128) hz,
    View.ld_unit_zero (S := S512x1024) hz, shapeCast_self]

/-- Case A: the body stores the zero block first, so it leaves `0 + Δ` whatever the block held. -/
theorem out_A (c : Dev nD) (i : grid0.Coords) (a2 : Memref sig .tc .vmem S512x1024 .f32) (h2 : a2.IsWhole)
    (a3 : Memref sig .tc .vmem S512x1024 .f32) (h3 : a3.IsWhole) (a4 : Memref sig .tc .vmem S8x128 .f32) (h4 : a4.IsWhole)
    (hc : cond0_0 i) (x0 x1 : Vec F S512x1024 .f32) :
    out0_A_2 c i a2 h2 a3 h3 a4 h4 hc x0 x1 = addf zero (k0_pay4 x0 x1) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz, View.readCov_unit_zero (S := S8x128) _ hz]
  unfold k0_pay1 k0_pay3 k0_pay2
  simp only [View.readAt_eq_ld, h2.read_unread, h3.read_unread, View.ld_unit_zero (S := S512x1024) hz, shapeCast_self]

end Cert.KernelIdeal.KVal

end
-- ==== Proof.KAcc.lean ====
/-
  The accumulation across the grid, and the result array of the kernel call. The accumulator block restarts from zero
  at the points 0 and 32 and gains the point's partial loss (at entry (0, 0)) at every point; so after point `t` it
  holds, at (0, 0), the partials of the points `32·(t / 32) … t`, and zero elsewhere. It is written back to block
  `t / 32` of the [16, 128] result array at the points 31 and 63 only, whose two blocks tile the array: the array ends as
  `outArr` — half 0's loss at (0, 0), half 1's at (8, 0), zero elsewhere.
-/
import proofs.«148987_j67542655697315_2_alg».proof.Proof.KDefs
import proofs.«148987_j67542655697315_2_alg».proof.Proof.KPay
import proofs.«148987_j67542655697315_2_alg».proof.Proof.KOut
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable (m : (ℓ : Loc nD τ sig) → Buf (Elt Ideal) ℓ)

/-- What point `n` adds to the accumulator block. -/
def delta (c : Dev nD) (n : ℕ) (h : n < cfg0.N) : Vec Ideal S8x128 .f32 :=
  k0_pay4 (F := Ideal) (iblk m c 0 ⟨n, h⟩) (iblk m c 1 ⟨n, h⟩)

/-- It is the point's partial loss at (0, 0), zero elsewhere. -/
theorem delta_eq (c : Dev nD) (n : ℕ) (h : n < cfg0.N) : delta m c n h = cell (blockTot m c n) := by
  unfold delta blockTot
  rw [dif_pos h]
  exact pay4_eq _ _

/-- At the first point of a half the block restarts: `0 + Δ`. -/
theorem outsAt_reset (c : Dev nD) (n : ℕ) (h : n < cfg0.N) (h0 : n % 32 = 0) :
    outsAt0 m c n h = addf (F := Ideal) (s := S8x128) (φ := .f32) (zero (F := Ideal)) (delta m c n h) :=
  (outsAt0_A m c ⟨n, h⟩ h0).trans (out_A ..)

/-- At every other point it gains the point's addend. -/
theorem outsAt_step (c : Dev nD) (n : ℕ) (h : n + 1 < cfg0.N) (h0 : ¬(n + 1) % 32 = 0) :
    outsAt0 m c (n + 1) h = addf (F := Ideal) (s := S8x128) (φ := .f32) (outsAt0 m c n (Nat.lt_of_succ_lt h)) (delta m c (n + 1) h) :=
  (outsAt0_B m c ⟨n + 1, h⟩ h0).trans (out_B ..)

/-- Blocks that are zero off (0, 0) add entrywise at (0, 0). -/
theorem cell_sum (S : Finset ℕ) (x : ℕ → EReal) (i : S8x128.Idx) : ∑ s ∈ S, cell (x s) i = cell (∑ s ∈ S, x s) i := by
  unfold cell
  by_cases h : (i 0).val = 0 ∧ (i 1).val = 0
  · simp only [if_pos h]
  · simp only [if_neg h, Finset.sum_const_zero]

/-- After point `t` the accumulator block holds the partials of its half's points up to `t`. -/
theorem outsAt_run (c : Dev nD) (t : ℕ) (ht : t < cfg0.N) (i : S8x128.Idx) :
    outsAt0 m c t ht i = cell (∑ s ∈ Finset.range (t % 32 + 1), blockTot m c (32 * (t / 32) + s)) i := by
  have hN : cfg0.N = 64 := N_0
  have h' : 32 * (t / 32) + t % 32 < cfg0.N := by rw [Nat.div_add_mod]; exact ht
  rw [Pipeline.eq_accAt_of_mod (outsAt0 m c) 32 (fun n h => addf (F := Ideal) (s := S8x128) (φ := .f32) (zero (F := Ideal)) (delta m c n h))
    (fun n h acc => addf (F := Ideal) (s := S8x128) (φ := .f32) acc (delta m c n h)) (outsAt_reset m c) (outsAt_step m c) (by norm_num) t ht h']
  rw [Pipeline.accAt_add_apply (ι := S8x128.Idx) (β := EReal) _ _ (fun _ => 0) (fun n => cell (blockTot m c n))
    (32 * (t / 32)) 31 (fun h i => by
      show (zero (F := Ideal)) i + delta m c _ h i = _
      rw [delta_eq]
      show Ideal.ofBits .f32 0x00000000#32 + _ = _
      rw [Ideal.ofBits_zero_f32])
    (fun n h acc i _ _ => by
      show acc i + delta m c n h i = _
      rw [delta_eq])
    (t % 32) (by have := Nat.mod_lt t (by norm_num : 0 < 32); omega) h' i]
  rw [zero_add, cell_sum]

/-- Where the result window's blocks sit: block `t / 32` on the row axis, block 0 on the lane axis. -/
theorem idx_out : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- What a writing point (31 or 63) writes back is its block of `outArr`. -/
theorem flushed_eq (c : Dev nD) (t : Fin cfg0.N) (hf : (cfg0.win 2).flush t = true) :
    (dats m 0 c).flushed 2 t = ((cfg0.win 2).blk t).view.read (Elt Ideal) (outArr m c) := by
  have h31 : t.val % 32 = 31 := (flush0_2 t).mp hf
  obtain ⟨e0, e1⟩ := idx_out t
  show (cfg0.win 2).cut (grid0.coords t) ((dats m 0 c).after 2 t) = _
  rw [after0_2]
  funext j
  show outsAt0 m c t.val t.isLt j = outArr m c (((cfg0.win 2).blk t).view.emb j)
  rw [outsAt_run, h31]
  have hj0 : (j 0).val < 8 := (j 0).isLt
  have hj1 : (j 1).val < 128 := (j 1).isLt
  show (if (j 0).val = 0 ∧ (j 1).val = 0 then ∑ s ∈ Finset.range 32, blockTot m c (32 * (t.val / 32) + s) else 0)
    = if (win0_2.index t (0 : Fin 2) * 8 + 1 * (j 0).val) % 8 = 0 ∧ (win0_2.index t (1 : Fin 2) * 128 + 1 * (j 1).val) = 0
        then half m c ((win0_2.index t (0 : Fin 2) * 8 + 1 * (j 0).val) / 8) else 0
  rw [e0, e1]
  by_cases h : (j 0).val = 0 ∧ (j 1).val = 0
  · rw [if_pos h, if_pos (by omega)]
    unfold half
    rw [show (t.val / 32 * 8 + 1 * (j 0).val) / 8 = t.val / 32 by omega]
  · rw [if_neg h, if_neg (by omega)]

/-- An index of the result array is in point `t`'s block iff each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- The two written blocks tile the array: row `r` is in the block written at point `32·(r / 8) + 31`. -/
theorem cover (i : S16x128.Idx) : ∃ t : Fin cfg0.N, (cfg0.win 2).flush t = true ∧ i ∈ ((cfg0.win 2).blk t).view.set := by
  have hN : grid0.N = 64 := N_0
  have hi0 : (i 0).val < 16 := (i 0).isLt
  have hi1 : (i 1).val < 128 := (i 1).isLt
  obtain ⟨t, ht⟩ : ∃ t : Fin cfg0.N, t.val = 32 * ((i 0).val / 8) + 31 :=
    ⟨⟨32 * ((i 0).val / 8) + 31, by show _ < grid0.N; omega⟩, rfl⟩
  refine ⟨t, (flush0_2 t).mpr (by omega), ?_⟩
  rw [mem_blk]
  obtain ⟨e0, e1⟩ := idx_out t
  intro a
  match a with
  | ⟨0, _⟩ =>
    show win0_2.index t (0 : Fin 2) * 8 ≤ (i 0).val ∧ (i 0).val < win0_2.index t (0 : Fin 2) * 8 + 8
    rw [e0]; omega
  | ⟨1, _⟩ =>
    show win0_2.index t (1 : Fin 2) * 128 ≤ (i 1).val ∧ (i 1).val < win0_2.index t (1 : Fin 2) * 128 + 128
    rw [e1]; omega

/-- The result array of the kernel call after the run. -/
theorem final2 (c : Dev nD) : (dats m 0 c).arrAt 2 cfg0.N = outArr m c :=
  (dats m 0 c).arrAt_eq_of_cover 2 (outArr m c) (flushed_eq m c) cover

end Cert.KernelIdeal.KVal

end
-- ==== Proof.Algebra.lean ====
/-
  Re-indexing of finite sums over the extended reals. Every statement here is an equality of two sums of the same
  terms taken in two orders or over two descriptions of the same index set; the extended reals enter only as a
  commutative additive monoid (no subtraction, no cancellation).
-/
import proofs.«148987_j67542655697315_2_alg».proof.Proof.Spec
import Idealize.ShloMosaic.Lib.ValueIdx
import Idealize.ShloMosaic.Lib.Pipeline.Value

noncomputable section

namespace BceSum

open Idealize.ShloMosaic Idealize.ShloMosaic.ValueIdx

/-- A row number below 32768 is `512·t + r` for exactly one block `t < 64` and one offset `r < 512`
    (quotient and remainder by 512). -/
def blockEquiv : Fin 64 × Fin 512 ≃ Fin 32768 where
  toFun p := rowOf p.1 p.2
  invFun R := (⟨R.val / 512, by have := R.isLt; omega⟩, ⟨R.val % 512, Nat.mod_lt _ (by norm_num)⟩)
  left_inv p := by
    rcases p with ⟨t, r⟩
    have ht := t.isLt
    have hr := r.isLt
    refine Prod.ext (Fin.ext ?_) (Fin.ext ?_)
    · show (512 * t.val + r.val) / 512 = t.val
      omega
    · show (512 * t.val + r.val) % 512 = r.val
      omega
  right_inv R := by
    refine Fin.ext ?_
    show 512 * (R.val / 512) + R.val % 512 = R.val
    omega

/-- The 64 blocks of 512 rows tile the 32768 rows. -/
theorem sum_rows_blocks (F : S2.Idx → EReal) :
    ∑ t : Fin 64, ∑ r : Fin 512, ∑ l : Fin 1024, F (ix2 (rowOf t r) l) = ∑ j : S2.Idx, F j := by
  rw [sum_idx2 (n0 := 32768) (n1 := 1024) F,
    ← Equiv.sum_comp blockEquiv (fun a => ∑ b : Fin 1024, F (ix2 a b)), Fintype.sum_prod_type]
  rfl

/-- A sum over the flattened array is the sum over the array: the row-major reshape is a bijection of indices. -/
theorem sum_reshape (h : S4.ShapeCasts S2) (f : EReal → EReal → EReal) (P T : S4.Idx → EReal) :
    ∑ j : S2.Idx, f (shapeCast S2 P h j) (shapeCast S2 T h j) = ∑ q : S4.Idx, f (P q) (T q) :=
  Equiv.sum_comp (Shape.reshapeEquiv h) (fun q => f (P q) (T q))

/-- Two runs of 32 consecutive points are the 64 points. -/
theorem sum_two_runs (M : ℕ → EReal) :
    (∑ s ∈ Finset.range 32, M (32 * 0 + s)) + ∑ s ∈ Finset.range 32, M (32 * 1 + s) = ∑ t : Fin 64, M t.val := by
  have h := Finset.sum_range_add (fun n => M n) 32 32
  rw [Fin.sum_univ_eq_sum_range (fun n => M n) 64]
  show _ = ∑ x ∈ Finset.range (32 + 32), M x
  rw [h]
  simp only [Nat.mul_zero, Nat.mul_one, Nat.zero_add]

/-- A [16,128] array that is zero except at (0,0) and (8,0) sums to those two entries. -/
theorem sum_sparse (s : ℕ → EReal) :
    ∑ j : (⟨2, ![16, 128]⟩ : Shape).Idx, (if (j 0).val % 8 = 0 ∧ (j 1).val = 0 then s ((j 0).val / 8) else 0) = s 0 + s 1 := by
  rw [sum_idx2]
  -- in each row only the entry of column 0 can be non-zero
  have inner : ∀ a : Fin 16,
      ∑ b : Fin 128, (if ((ix2 a b) 0).val % 8 = 0 ∧ ((ix2 a b) 1).val = 0 then s (((ix2 a b) 0).val / 8) else 0)
        = if a.val % 8 = 0 then s (a.val / 8) else 0 := by
    intro a
    rw [Finset.sum_eq_single (0 : Fin 128)]
    · show (if a.val % 8 = 0 ∧ ((0 : Fin 128) : ℕ) = 0 then s (a.val / 8) else 0) = _
      simp
    · intro b _ hb
      have hb' : b.val ≠ 0 := fun e => hb (Fin.ext e)
      show (if a.val % 8 = 0 ∧ b.val = 0 then s (a.val / 8) else 0) = 0
      rw [if_neg (fun c => hb' c.2)]
    · intro hn
      exact absurd (Finset.mem_univ _) hn
  simp only [inner]
  -- of the 16 rows only rows 0 and 8 are multiples of 8
  rw [Fin.sum_univ_eq_sum_range (fun n => if n % 8 = 0 then s (n / 8) else 0) 16]
  simp [Finset.sum_range_succ]

end BceSum

end
-- ==== Proof.KBlocks.lean ====
/-
  The kernel's two halves add up to the loss. The region finds the two arguments flattened to [32768, 1024] (a
  row-major reshape before it); grid point `t` reads rows `512·t … 512·t + 511` of each; so the 64 partial losses are
  the sums of the cross-entropy over the 64 blocks of rows, the blocks tile the rows, and the flattened arrays hold the
  arguments' elements each exactly once.
-/
import proofs.«148987_j67542655697315_2_alg».proof.Proof.KDefs
import proofs.«148987_j67542655697315_2_alg».proof.Proof.Algebra
import Idealize.ShloMosaic.Lib.Pipeline.Value
import Idealize.ShloMosaic.Lib.StableHlo.Run
import Idealize.ShloMosaic.Lib.Tactic

noncomputable section

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The region finds the first argument flattened to rows of 1024. -/
theorem V_v0 (c : Dev nD) :
    (V m c main_v0 : S32768x1024.Idx → EReal)
      = shapeCast S32768x1024 (m ((c : Thread nD τ).loc main_arg0)) shapeCasts_S32x1x1024x1024_S32768x1024 := by
  show StableHlo.after hostOps0 (fun b => m (c, b)) (Proc.devRef .tc main_v0) = _
  after_results
  rfl

/-- The region finds the second argument flattened to rows of 1024. -/
theorem V_v1 (c : Dev nD) :
    (V m c main_v1 : S32768x1024.Idx → EReal)
      = shapeCast S32768x1024 (m ((c : Thread nD τ).loc main_arg1)) shapeCasts_S32x1x1024x1024_S32768x1024 := by
  show StableHlo.after hostOps0 (fun b => m (c, b)) (Proc.devRef .tc main_v1) = _
  after_results
  rfl

/-- Where each window's block sits at grid point `t`: block row `t`, block column 0. -/
theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = t.val ∧ win0_1.index t (1 : Fin 2) = 0 :=
  (by decide +kernel : ∀ t : Fin grid0.N, _)

/-- A block read of window 0: entry (r, l) of the block at point `t` is entry (512·t + r, l) of the flattened first
    argument (a block's coordinate is block index × block extent + the coordinate inside the block). -/
theorem iblk0_apply (c : Dev nD) (t : Fin cfg0.N) (r : Fin 512) (l : Fin 1024) (hR : 512 * t.val + r.val < 32768) :
    (iblk m c 0 t : FVec Ideal S512x1024 .f32) (ix2 r l)
      = (V m c main_v0 : S32768x1024.Idx → EReal) (ix2 ⟨512 * t.val + r.val, hR⟩ l) := by
  have hi := idx_facts0 t
  unfold iblk
  rw [View.read_apply]
  show V m c main_v0 _ = V m c main_v0 _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * l.val = l.val; rw [hi.2]; omega

/-- The same for window 1 and the flattened second argument. -/
theorem iblk1_apply (c : Dev nD) (t : Fin cfg0.N) (r : Fin 512) (l : Fin 1024) (hR : 512 * t.val + r.val < 32768) :
    (iblk m c 1 t : FVec Ideal S512x1024 .f32) (ix2 r l)
      = (V m c main_v1 : S32768x1024.Idx → EReal) (ix2 ⟨512 * t.val + r.val, hR⟩ l) := by
  have hi := idx_facts1 t
  unfold iblk
  rw [View.read_apply]
  show V m c main_v1 _ = V m c main_v1 _
  congr 1
  funext a
  apply Fin.ext
  match a with
  | ⟨0, _⟩ => show win0_1.index t 0 * 512 + 1 * r.val = 512 * t.val + r.val; rw [hi.1]; omega
  | ⟨1, _⟩ => show win0_1.index t 1 * 1024 + 1 * l.val = l.val; rw [hi.2]; omega

/-- The partial loss of block `t`, read off the flattened arguments: the sum of the cross-entropy over rows
    `512·t … 512·t + 511`. -/
theorem blockTot_eq (c : Dev nD) (t : Fin 64) :
    blockTot m c t.val = ∑ r : Fin 512, ∑ l : Fin 1024,
      BceSum.bce ((V m c main_v0 : BceSum.S2.Idx → EReal) (ix2 (BceSum.rowOf t r) l))
        ((V m c main_v1 : BceSum.S2.Idx → EReal) (ix2 (BceSum.rowOf t r) l)) := by
  have hN : cfg0.N = 64 := N_0
  have ht : t.val < cfg0.N := by have := t.isLt; omega
  unfold blockTot
  rw [dif_pos ht]
  unfold tot
  refine Finset.sum_congr rfl fun r _ => Finset.sum_congr rfl fun l _ => ?_
  rw [iblk0_apply m c ⟨t.val, ht⟩ r l (BceSum.rowOf t r).isLt, iblk1_apply m c ⟨t.val, ht⟩ r l (BceSum.rowOf t r).isLt]

/-- Both halves together are the loss of the two argument arrays. -/
theorem halves_eq_total (c : Dev nD) :
    half m c 0 + half m c 1
      = BceSum.total (m ((c : Thread nD τ).loc main_arg0)) (m ((c : Thread nD τ).loc main_arg1)) := by
  unfold half
  -- the two runs of 32 points are the 64 points
  refine (BceSum.sum_two_runs (blockTot m c)).trans ?_
  -- each point contributes its block of 512 rows of the flattened arrays
  refine (Finset.sum_congr rfl fun t _ => blockTot_eq m c t).trans ?_
  -- the 64 blocks tile the 32768 rows
  refine (BceSum.sum_rows_blocks (fun j => BceSum.bce ((V m c main_v0 : BceSum.S2.Idx → EReal) j)
    ((V m c main_v1 : BceSum.S2.Idx → EReal) j))).trans ?_
  -- and the flattened arrays hold the arguments' elements, each once
  rw [V_v0, V_v1]
  unfold BceSum.total
  exact BceSum.sum_reshape _ BceSum.bce _ _

end Cert.KernelIdeal.KVal

end
-- ==== Proof.KTail.lean ====
/-
  The kernel program's run read to its end. After the kernel call the host adds up the [16, 128] result array from the
  zero word and reshapes the scalar to itself; the array holds the two halves' losses at (0, 0) and (8, 0) and zero
  elsewhere, so the scalar is their sum. The two arguments are written by nothing and end as they began.
-/
import proofs.«148987_j67542655697315_2_alg».proof.Proof.KDefs
import proofs.«148987_j67542655697315_2_alg».proof.Proof.Algebra
import Idealize.ShloMosaic.Lib.Pipeline.Value
import Idealize.ShloMosaic.Lib.StableHlo.Run
import Idealize.ShloMosaic.PureOps.Ideal.Laws
import Idealize.ShloMosaic.Lib.Tactic

noncomputable section

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The scalar the host computes from the result array: the zero word plus the array's total, which is the two halves' sum. -/
theorem tail_value (hfin : ∀ c : Dev nD, (dats m 0 c).arrAt 2 cfg0.N = outArr m c) (c : Dev nD) :
    Pipeline.afterTail₀ cfgs (dats m) 0 (V0 m) [hostOps1] c main_v4 = (fun _ => half m c 0 + half m c 1) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v2) = outArr m c :=
    (Pipeline.withArrays_arr spec0 launch0.win.arr_inj c _ _ 2).trans (hfin c)
  rw [hw]
  funext i
  show shapeCast S_ (Host.reduceAdd (F := Ideal) (outArr m c) (constant (F := Ideal) S_ .f32 0x00000000#32) reducesTo_S16x128_S_d0_1 h_S_) shapeCasts_S_S_ i = _
  rw [shapeCast_self]
  simp only [Host.reduceAdd, Ideal.hostReduceAdd_def]
  rw [Ideal.hostReduceAdd_total reducesTo_S16x128_S_d0_1 (fun b => b.elim0) _ _ i]
  show Ideal.ofBits .f32 0x00000000#32 + _ = _
  rw [Ideal.ofBits_zero_f32, zero_add]
  unfold outArr
  exact BceSum.sum_sparse (half m c)

/-- The kernel program's run at the ideal instance: the result is the two halves' sum, the arguments unchanged. -/
theorem run_of_final (hfin : ∀ c : Dev nD, (dats m 0 c).arrAt 2 cfg0.N = outArr m c) :
    θ_run defs (onTc (τ := τ) (main (F := Ideal))) ⟨m, fun _ => 0, ρ⟩ (fun r => ∀ c : Dev nD,
      r.2.mem ((c.tc : Thread nD τ).loc main_v4) = (fun _ => half m c 0 + half m c 1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_value m hfin c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KVal

end
-- ==== Proof.lean ====
/-
  The certificate's five claims, assembled.

  Both programs compute the clamped binary cross-entropy loss of two f32[32, 1, 1024, 1024] arrays,
      total P T = ∑ over every element q of  -( T q · max (log (P q)) (-100) + (1 - T q) · max (log1p (-(P q))) (-100) ),
  read over the extended reals. The reference sums the unit channel axis, divides by 1 and sums the rest; at the ideal
  instance that is `total` (the sum over a unit axis is its one term, `x / 1 = x`, and the remaining sum re-indexes to the
  whole index set). The kernel flattens the arrays to [32768, 1024], walks 64 blocks of 512 rows in two runs of 32,
  accumulates each run's block sums into entry (0, 0) of one [8, 128] block of a [16, 128] array that is zero elsewhere,
  and sums that array on the host; that is `total` too, because a finite sum over the extended reals does not depend on
  how it is grouped or ordered (addition there is commutative and associative). No finiteness of the inputs is needed:
  the only laws used are those of a commutative additive monoid, `0 + x = x`, `0 - x = -x` and `x / 1 = x`.

  The frames of the two kernel programs are the generated frame certificates; the reference's frame is its generated run
  with the result dropped; the idealization rewrote nothing, so `preserves` is `True`.
-/
import proofs.«148987_j67542655697315_2_alg».proof.Defs
import proofs.«148987_j67542655697315_2_alg».proof.Proof.Gen.Kernel
import proofs.«148987_j67542655697315_2_alg».proof.Proof.Gen.Kernel.Frame
import proofs.«148987_j67542655697315_2_alg».proof.Proof.Gen.KernelIdeal
import proofs.«148987_j67542655697315_2_alg».proof.Proof.Gen.KernelIdeal.Frame
import proofs.«148987_j67542655697315_2_alg».proof.Proof.Gen.ReferenceIdeal
import proofs.«148987_j67542655697315_2_alg».proof.Proof.Gen.ReferenceIdeal.Run
import proofs.«148987_j67542655697315_2_alg».proof.Proof.Gen.ReferenceIdeal.Read
import proofs.«148987_j67542655697315_2_alg».proof.Proof.Gen.Pre_finite_inputs
import proofs.«148987_j67542655697315_2_alg».proof.Proof.Spec
import proofs.«148987_j67542655697315_2_alg».proof.Proof.RefValue
import proofs.«148987_j67542655697315_2_alg».proof.Proof.KAcc
import proofs.«148987_j67542655697315_2_alg».proof.Proof.KBlocks
import proofs.«148987_j67542655697315_2_alg».proof.Proof.KTail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end with the loss `total` of their (agreeing) argument arrays. -/
theorem algebraic : Cert.algebraic_KernelIdeal_ReferenceIdeal := by
  intro m ρ m' ρ' _ hagree
  refine ⟨fun c => fun _ => BceSum.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.KVal.run_of_final m ρ (Cert.KernelIdeal.KVal.final2 m))
    funext _
    exact Cert.KernelIdeal.KVal.halves_eq_total m c
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
